-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000x64, .f32⟩
  | .hbm, ⟨21, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Kernel.BodyDefs.lean ====
/-
  The two-layer graph convolution runs on a grid of 2 × 25 points, numbered 0 … 49 in row-major order. Point 0 also
  forms the feature transform x·W0 and keeps it in the first scratch buffer; each point t < 25 forms rows
  [400 t, 400 t + 400) of the hidden activation relu(adj·(x·W0) + b0)·W1 and keeps them in the second scratch buffer;
  each point t ≥ 25 forms rows [400 (t − 25), …) of the result relu(adj·hidden + b1) in the output block. This module
  decides the three branch conditions, the idle and write-back schedule of the output window and the row offset of the
  hidden slice over the 50 points, and names the buffers a point is run on.
-/
import proofs.«111238_g66666482369179_cont_9to1_m_93_3_alg».proof.Proof.Gen.Kernel.Frame
import proofs.«111238_g66666482369179_cont_9to1_m_93_3_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The first branch (form x·W0): taken at the point with both coordinates zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (a slice of the hidden activation): taken in the first sweep over the row blocks. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third branch (a block of the result): taken in the second sweep. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The hidden slice of point t starts at row 400·(t mod 25), column 0. -/
theorem off1_eq : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and when the output block is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly in the first sweep, -/
theorem idle0_6 : ∀ t : Fin cfg0.N, cfg0.idle 6 (grid0.coords t) = decide (t.val < 25) :=
  (by decide +kernel : ∀ t : Fin grid0.N, cfg0.idle 6 (grid0.coords t) = decide (t.val < 25))
/-- and its block is written back exactly at the points of the second sweep. -/
theorem flush0_6 : ∀ t : Fin cfg0.N, (cfg0.win 6).flush t = decide (25 ≤ t.val) :=
  (by decide +kernel : ∀ t : Fin grid0.N, win0_6.flush t = decide (25 ≤ t.val))

/-! ## The buffers a point is run on -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
/-- The two scratch buffers: x·W0, and the hidden activation. -/
abbrev scM0_0 : Memref sig .tc .vmem S10000x128 .f32 := Memref.whole cc0_scratch0
abbrev scM0_1 : Memref sig .tc .vmem S10000x64 .f32 := Memref.whole cc0_scratch1

/-- What the launch hands the first point: both scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.Kernel.RunA.lean ====
/-
  The first grid point on any buffers: it forms x·W0 into the first scratch buffer (one store that covers it), reads it
  back, and stores rows [0, 400) of the hidden activation into the second scratch buffer. The pieces the two scratch
  buffers end with are found by running the body.
-/
import proofs.«111238_g66666482369179_cont_9to1_m_93_3_alg».proof.Proof.Kernel.BodyDefs
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point where the first two branches are taken and the third is not: the inputs are handed back as
    they were, the output buffer untouched, the first scratch buffer with the pieces `LS.1` written over what it held,
    the second with the pieces `LS.2` written over its contents `s1`. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ (∃ d, owns (c : Thread nD τ) arg9 fullShare d) ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ (∃ f, arg9.view.loc (c : Thread nD τ) ↦[arg9.view.set]{fullShare} arg9.view.writes (Elt F) f LS.1) ∗ (arg10.view.loc (c : Thread nD τ) ↦[arg10.view.set]{fullShare} arg10.view.writes (Elt F) (harg10.unread s1) LS.2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexact HS1

end Cert.Kernel.Body

end
-- ==== Proof.Kernel.RunB.lean ====
/-
  A later point of the first sweep on any buffers: it reads x·W0 from the first scratch buffer and stores its 400 rows
  of the hidden activation into the second.
-/
import proofs.«111238_g66666482369179_cont_9to1_m_93_3_alg».proof.Proof.Kernel.RunA
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point where only the second branch is taken: the inputs, the output buffer and the first scratch
    buffer are handed back as they were, the second scratch buffer with the pieces `LS` written over its contents `s1`. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s0 : Vec F S10000x128 .f32) (s1 : Vec F S10000x64 .f32) :
    { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare s0 ∗ (arg10.view.loc (c : Thread nD τ) ↦[arg10.view.set]{fullShare} arg10.view.writes (Elt F) (harg10.unread s1) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

end Cert.Kernel.Body

end
-- ==== Proof.Kernel.RunC.lean ====
/-
  A point of the second sweep on any buffers: it reads the whole hidden activation from the second scratch buffer and
  stores its block of the result into the output buffer (one store that covers it).
-/
import proofs.«111238_g66666482369179_cont_9to1_m_93_3_alg».proof.Proof.Kernel.RunB
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point where only the third branch is taken: the inputs and both scratch buffers are handed back as
    they were, the output buffer with the pieces `LS` written over what it held. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) :
    { LS : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LS) ∗ owns (c : Thread nD τ) arg9 fullShare s0 ∗ owns (c : Thread nD τ) arg10 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Body

end
-- ==== Proof.Kernel.BodyPieces.lean ====
/-
  What the runs of the three kinds of grid point leave in the buffers they store into, read off the pieces each run
  found: the first point leaves x·W0 in the first scratch buffer (its one store covers the buffer, and the later load
  reads that product back); a point of the first sweep writes one piece into the second scratch buffer, its 400 rows of
  the hidden activation, at the point's row offset; a point of the second sweep leaves its block of the result in the
  output buffer (one covering store).
-/
import proofs.«111238_g66666482369179_cont_9to1_m_93_3_alg».proof.Proof.Kernel.RunC
import Idealize.ShloMosaic.Lib.Pipeline.Value
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The one store into the first scratch buffer covers it. -/
theorem coverA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) (y : S10000x128.Idx) :
    ∃ p ∈ (runA c i arg2 harg2 arg3 harg3 arg4 harg4 arg5 harg5 arg6 harg6 arg7 harg7 arg8 harg8 arg9 harg9 arg10 harg10 hc0 hc1 hc2 x0 x1 x2 x3 x4 x5 y8 s1).1.1, y ∈ p.1.set := by
  unfold runA
  dsimp only
  sl_unfold_run_names
  refine ⟨_, List.mem_singleton_self _, ?_⟩
  exact View.mem_set_unit_zero (S := S10000x128) hz inb_S10000x128_S10000x128_0_0 y

/-- After the first point the first scratch buffer holds x·W0, whatever it held before. -/
theorem runA_s0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 y8 s1).1.1)
      = k0_pay1 x0 x2 := by
  rw [View.read_writes_eq_canon _ _ _ (coverA c i arg2 harg2 arg3 harg3 arg4 harg4 arg5 harg5 arg6 harg6 arg7 harg7 arg8 harg8 arg9 harg9 arg10 harg10 hc0 hc1 hc2 x0 x1 x2 x3 x4 x5 y8 s1)]
  unfold runA
  dsimp only
  sl_unfold_run_names
  rw [View.canon_unit_zero (S := S10000x128) hz]
  simp only [View.readAt_eq_ld, harg2.read_unread, harg4.read_unread, View.ld_unit_zero (S := S10000x128) hz, View.ld_unit_zero (S := S128x128) hz]

/-- The first point writes one piece into the second scratch buffer: rows [0, 400) of the hidden activation, formed from
    the product it has just stored and read back. -/
theorem runA_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 y8 s1).1.2
      = [⟨Rect.unit (s := S10000x64) (k0_off1 i) S400x64.size (k0_off1_inb i hc1), k0_pay2 x1 (k0_pay1 x0 x2) x3 x4⟩] := by
  unfold runA
  dsimp only
  sl_unfold_run_names
  rw [View.readCov_unit_zero (S := S10000x128) _ hz]
  simp only [View.readAt_eq_ld, harg2.read_unread, harg3.read_unread, harg4.read_unread, harg5.read_unread, harg6.read_unread,
    View.ld_unit_zero (S := S10000x128) hz, View.ld_unit_zero (S := S128x128) hz, View.ld_unit_zero (S := S400x10000) hz,
    View.ld_unit_zero (S := S1x128) hz, View.ld_unit_zero (S := S128x64) hz]

/-- A later point of the first sweep writes one piece into the second scratch buffer: its 400 rows of the hidden
    activation, formed from the product `s0` it finds in the first. -/
theorem runB_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s0 : Vec F S10000x128 .f32) (s1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 y8 s0 s1).1
      = [⟨Rect.unit (s := S10000x64) (k0_off1 i) S400x64.size (k0_off1_inb i hc1), k0_pay2 x1 s0 x3 x4⟩] := by
  unfold runB
  dsimp only
  sl_unfold_run_names
  simp only [View.readAt_eq_ld, harg3.read_unread, harg5.read_unread, harg6.read_unread, harg9.read_unread,
    View.ld_unit_zero (S := S10000x128) hz, View.ld_unit_zero (S := S400x10000) hz,
    View.ld_unit_zero (S := S1x128) hz, View.ld_unit_zero (S := S128x64) hz]

/-- The one store of a point of the second sweep covers the output buffer. -/
theorem coverC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) (y : S400x64.Idx) :
    ∃ p ∈ (runC c i arg2 harg2 arg3 harg3 arg4 harg4 arg5 harg5 arg6 harg6 arg7 harg7 arg8 harg8 arg9 harg9 arg10 harg10 hc0 hc1 hc2 x0 x1 x2 x3 x4 x5 s0 s1).1, y ∈ p.1.set := by
  unfold runC
  dsimp only
  sl_unfold_run_names
  refine ⟨_, List.mem_singleton_self _, ?_⟩
  exact View.mem_set_unit_zero (S := S400x64) hz inb_S400x64_S400x64_0_0 y

/-- After a point of the second sweep the output buffer holds the point's block of the result, formed from the hidden
    activation `s1` it finds in the second scratch buffer. -/
theorem runC_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 s0 s1).1)
      = k0_pay3 x1 s1 x5 := by
  rw [View.read_writes_eq_canon _ _ _ (coverC c i arg2 harg2 arg3 harg3 arg4 harg4 arg5 harg5 arg6 harg6 arg7 harg7 arg8 harg8 arg9 harg9 arg10 harg10 hc0 hc1 hc2 x0 x1 x2 x3 x4 x5 s0 s1)]
  unfold runC
  dsimp only
  sl_unfold_run_names
  rw [View.canon_unit_zero (S := S400x64) hz]
  simp only [View.readAt_eq_ld, harg3.read_unread, harg7.read_unread, harg10.read_unread,
    View.ld_unit_zero (S := S10000x64) hz, View.ld_unit_zero (S := S400x10000) hz, View.ld_unit_zero (S := S1x64) hz]

end Cert.Kernel.Body

end
-- ==== Proof.Kernel.BodyData.lean ====
/-
  The proof data of the pipelined region and the body obligation at every grid point.

  Between points the first scratch buffer holds x·W0 (from point 0 on) and the second scratch buffer holds, in rows
  [0, 400·min(n, 25)), the rows of the hidden activation relu(adj·(x·W0) + b0)·W1 the first n points have formed; its
  other rows are not described. After the first sweep every row is formed, so the buffer IS the hidden activation, and a
  point of the second sweep leaves in the output block relu(adj_block·hidden + b1). The output window is idle during the
  first sweep (its buffer is handed back as found) and is written back at every point of the second.
-/
import proofs.«111238_g66666482369179_cont_9to1_m_93_3_alg».proof.Proof.Kernel.BodyPieces
import Idealize.ShloMosaic.Lib.ValueIdx
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
abbrev t0 : Fin cfg0.N := ⟨0, by rw [N50]; decide⟩

/-- x·W0 as the first point forms it. -/
def s0Of (c : Dev nD) : Vec F S10000x128 .f32 := k0_pay1 (iblk m c 0 t0) (iblk m c 2 t0)

/-- Rows [400 j, 400 j + 400) of the hidden activation as point j forms them. -/
def s1Blk (c : Dev nD) (j : Fin cfg0.N) : Vec F S400x64 .f32 :=
  k0_pay2 (iblk m c 1 j) (s0Of m c) (iblk m c 3 j) (iblk m c 4 j)

/-- The second scratch buffer `d` after `n` points: each block of rows a point j < min(n, 25) has formed is in place. -/
def Filled (c : Dev nD) (n : ℕ) (d : Vec F S10000x64 .f32) : Prop :=
  ∀ j : Fin cfg0.N, j.val < n → j.val < 25 → ∀ (idx : S10000x64.Idx) (y : S400x64.Idx),
    (idx 0).val = 400 * j.val + (y 0).val → (idx 1).val = (y 1).val → d idx = s1Blk m c j y

/-- The whole hidden activation: row r is row r mod 400 of block r / 400. -/
def s1Full (c : Dev nD) : Vec F S10000x64 .f32 := fun idx =>
  s1Blk m c ⟨(idx 0).val / 400, by have : (idx 0).val < 10000 := (idx 0).isLt; rw [N50]; omega⟩
    (ix2 (n0 := 400) (n1 := 64) ⟨(idx 0).val % 400, Nat.mod_lt _ (by decide)⟩ ⟨(idx 1).val, (idx 1).isLt⟩)

/-- Once all 25 blocks are in place the buffer is the hidden activation. -/
theorem Filled.full {c : Dev nD} {n : ℕ} {d : Vec F S10000x64 .f32} (h : Filled m c n d) (hn : 25 ≤ n) : d = s1Full m c := by
  funext idx
  have hlt : (idx 0).val < 10000 := (idx 0).isLt
  exact h ⟨(idx 0).val / 400, by rw [N50]; omega⟩ (by dsimp only; omega) (by dsimp only; omega) idx _
    (by dsimp only [ix2]; omega) rfl

/-- In the second sweep nothing more is formed. -/
theorem Filled.later {c : Dev nD} {n : ℕ} {d : Vec F S10000x64 .f32} (h : Filled m c n d) (hn : 25 ≤ n) : Filled m c (n + 1) d :=
  fun j _ hj25 => h j (by omega) hj25

/-- A point t of the first sweep puts its block in place and leaves the earlier blocks alone. -/
theorem Filled.step {c : Dev nD} (t : Fin cfg0.N) (ht : t.val < 25) {d : Vec F S10000x64 .f32} (hd : Filled m c t.val d)
    (inb : ∀ a, k0_off1 (grid0.coords t) a + S400x64.size a ≤ S10000x64.size a) :
    Filled m c (t.val + 1) (scM0_1.view.read (Elt F) (scM0_1.view.writes (Elt F) ((Memref.isWhole_whole cc0_scratch1).unread d)
      [⟨Rect.unit (s := S10000x64) (k0_off1 (grid0.coords t)) S400x64.size inb, s1Blk m c t⟩])) := by
  have hoff : k0_off1 (grid0.coords t) = ![400 * t.val, 0] := by rw [off1_eq t, Nat.mod_eq_of_lt ht]
  intro j hj hj25 idx y h0 h1
  by_cases hjt : j = t
  · subst hjt
    exact View.read_writes_cons_rows_of_mem (d := ![10000, 64]) scM0_1.view _ inb (s1Blk m c j) [] idx y hoff h0 h1
  · have hne : j.val ≠ t.val := fun h => hjt (Fin.ext h)
    have hy0 : (y 0).val < 400 := (y 0).isLt
    rw [View.read_writes_cons_rows_of_not_mem (d := ![10000, 64]) scM0_1.view _ inb (s1Blk m c t) [] idx hoff (W := 400) rfl (by omega),
      View.writes_nil, (Memref.isWhole_whole cc0_scratch1).read_unread]
    exact hd j (by omega) hj25 idx y h0 h1

/-- What the output buffer holds after point t of the second sweep. -/
def outBlk (c : Dev nD) (t : Fin cfg0.N) : Vec F S400x64 .f32 := k0_pay3 (iblk m c 1 t) (s1Full m c) (iblk m c 5 t)

/-! ## The invariant between points -/

def PhiS (c : Dev nD) : (n : ℕ) → n ≤ cfg0.N → sProp 𝕄
  | 0, _ => Pipeline.ΦA spec0 c
  | n + 1, _ => iprop(iprop(owns (c : Thread nD τ) scM0_0 fullShare (s0Of m c) ∗ (∃ d, ⌜Filled m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (s0Of m c) ∗ (∃ d, ⌜Filled m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (s0Of m c) ∗ (∃ d, ⌜Filled m c n d⌝ ∗ owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val < 25
  · have hc1 : cond0_1 (grid0.coords t) := (hcond0_1 t).mpr h1
    have hc2 : ¬cond0_2 (grid0.coords t) := fun h => absurd ((hcond0_2 t).mp h) (by omega)
    rw [Dat.leavesExact_idle (dats m 0 c) 6 t (by rw [idle0_6 t]; exact decide_eq_true h1) (by rw [flush0_6 t]; exact decide_eq_false (by omega))]
    by_cases hz : t.val = 0
    · obtain rfl : t = t0 := Fin.ext hz
      have hc0 : cond0_0 (grid0.coords t0) := (hcond0_0 t0).mpr rfl
      rw [PhiS_castSucc m c t0, PhiS_zero m c _ _ rfl, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) hc0 hc1 hc2 (iblk m c 0 t0) (iblk m c 1 t0) (iblk m c 2 t0) (iblk m c 3 t0) (iblk m c 4 t0) (iblk m c 5 t0) ((dats m 0 c).before 6 t0 d6) e1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%f9, HS0⟩, HS1⟩
      isplitl [HS0 HS1 Hg]
      · isplitl [HS0 HS1]
        · isplitl [HS0]
          · unfold owns; iexists _; isplitr
            swap; · iexact HS0
            ipureintro; exact runA_s0 c _ _ _ _ _ _ _ _ _ _ _ _ _ _ _ _ _ _ _ hc0 hc1 hc2 _ _ _ _ _ _ _ _ f9
          · rw [runA_s1]
            iexists _; isplitr
            swap; · unfold owns; iexists _; isplitr
                    swap; · iexact HS1
                    ipureintro; rfl
            ipureintro
            exact Filled.step m t0 h1 (fun j hj => absurd hj (Nat.not_lt_zero _)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => hz ((hcond0_0 t).mp h)
      rw [PhiS_castSucc m c t, PhiS_pos m c _ _ hz]
      iintro ⟨⟨⟨HS0, ⟨%e1, %hF, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) ((dats m 0 c).before 6 t d6) (s0Of m c) e1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · rw [runB_s1]
            iexists _; isplitr
            swap; · unfold owns; iexists _; isplitr
                    swap; · iexact HS1
                    ipureintro; rfl
            ipureintro
            exact Filled.step m t h1 hF _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    have hc0 : ¬cond0_0 (grid0.coords t) := fun h => hz ((hcond0_0 t).mp h)
    have hc1 : ¬cond0_1 (grid0.coords t) := fun h => h1 ((hcond0_1 t).mp h)
    have hc2 : cond0_2 (grid0.coords t) := (hcond0_2 t).mpr h2
    rw [show (dats m 0 c).leavesExact 6 t = owns (c : Thread nD τ) (ms0_6 t) fullShare ((dats m 0 c).after 6 t) from by
      unfold Dat.leavesExact; rw [idle0_6 t, decide_eq_false h1], after0_6]
    rw [PhiS_castSucc m c t, PhiS_pos m c _ _ hz]
    iintro ⟨⟨⟨HS0, ⟨%e1, %hF, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = s1Full m c := hF.full m h2
    iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) (s0Of m c) (s1Full m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f8, H6⟩, HS0, HS1⟩
    isplitl [HS0 HS1 Hg]
    · isplitl [HS0 HS1]
      · isplitl [HS0]
        · iexact HS0
        · iexists _; isplitr
          swap; · iexact HS1
          ipureintro; exact hF.later m h2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact runC_out c _ _ _ _ _ _ _ _ _ _ _ _ _ _ _ _ _ _ _ hc0 hc1 hc2 _ _ _ _ _ _ _ _ f8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; decide), PhiA0_eq]
  iintro ⟨⟨HS0, ⟨%e1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates without a fault; the result array ends at what the write-backs of
    the second sweep leave in it, every other array as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.BodyDefs.lean ====
/-
  The two-layer graph convolution runs on a grid of 2 × 25 points, numbered 0 … 49 in row-major order. Point 0 also
  forms the feature transform x·W0 and keeps it in the first scratch buffer; each point t < 25 forms rows
  [400 t, 400 t + 400) of the hidden activation relu(adj·(x·W0) + b0)·W1 and keeps them in the second scratch buffer;
  each point t ≥ 25 forms rows [400 (t − 25), …) of the result relu(adj·hidden + b1) in the output block. This module
  decides the three branch conditions, the idle and write-back schedule of the output window and the row offset of the
  hidden slice over the 50 points, and names the buffers a point is run on.
-/
import proofs.«111238_g66666482369179_cont_9to1_m_93_3_alg».proof.Proof.Gen.KernelIdeal.Frame
import proofs.«111238_g66666482369179_cont_9to1_m_93_3_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions over the grid -/

/-- The first branch (form x·W0): taken at the point with both coordinates zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (a slice of the hidden activation): taken in the first sweep over the row blocks. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- The third branch (a block of the result): taken in the second sweep. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-- The hidden slice of point t starts at row 400·(t mod 25), column 0. -/
theorem off1_eq : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and when the output block is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly in the first sweep, -/
theorem idle0_6 : ∀ t : Fin cfg0.N, cfg0.idle 6 (grid0.coords t) = decide (t.val < 25) :=
  (by decide +kernel : ∀ t : Fin grid0.N, cfg0.idle 6 (grid0.coords t) = decide (t.val < 25))
/-- and its block is written back exactly at the points of the second sweep. -/
theorem flush0_6 : ∀ t : Fin cfg0.N, (cfg0.win 6).flush t = decide (25 ≤ t.val) :=
  (by decide +kernel : ∀ t : Fin grid0.N, win0_6.flush t = decide (25 ≤ t.val))

/-! ## The buffers a point is run on -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
/-- The two scratch buffers: x·W0, and the hidden activation. -/
abbrev scM0_0 : Memref sig .tc .vmem S10000x128 .f32 := Memref.whole cc0_scratch0
abbrev scM0_1 : Memref sig .tc .vmem S10000x64 .f32 := Memref.whole cc0_scratch1

/-- What the launch hands the first point: both scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KernelIdeal.RunA.lean ====
/-
  The first grid point on any buffers: it forms x·W0 into the first scratch buffer (one store that covers it), reads it
  back, and stores rows [0, 400) of the hidden activation into the second scratch buffer. The pieces the two scratch
  buffers end with are found by running the body.
-/
import proofs.«111238_g66666482369179_cont_9to1_m_93_3_alg».proof.Proof.KernelIdeal.BodyDefs
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point where the first two branches are taken and the third is not: the inputs are handed back as
    they were, the output buffer untouched, the first scratch buffer with the pieces `LS.1` written over what it held,
    the second with the pieces `LS.2` written over its contents `s1`. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ (∃ d, owns (c : Thread nD τ) arg9 fullShare d) ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ (∃ f, arg9.view.loc (c : Thread nD τ) ↦[arg9.view.set]{fullShare} arg9.view.writes (Elt F) f LS.1) ∗ (arg10.view.loc (c : Thread nD τ) ↦[arg10.view.set]{fullShare} arg10.view.writes (Elt F) (harg10.unread s1) LS.2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexact HS1

end Cert.KernelIdeal.Body

end
-- ==== Proof.KernelIdeal.RunB.lean ====
/-
  A later point of the first sweep on any buffers: it reads x·W0 from the first scratch buffer and stores its 400 rows
  of the hidden activation into the second.
-/
import proofs.«111238_g66666482369179_cont_9to1_m_93_3_alg».proof.Proof.KernelIdeal.RunA
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point where only the second branch is taken: the inputs, the output buffer and the first scratch
    buffer are handed back as they were, the second scratch buffer with the pieces `LS` written over its contents `s1`. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s0 : Vec F S10000x128 .f32) (s1 : Vec F S10000x64 .f32) :
    { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare s0 ∗ (arg10.view.loc (c : Thread nD τ) ↦[arg10.view.set]{fullShare} arg10.view.writes (Elt F) (harg10.unread s1) LS)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

end Cert.KernelIdeal.Body

end
-- ==== Proof.KernelIdeal.RunC.lean ====
/-
  A point of the second sweep on any buffers: it reads the whole hidden activation from the second scratch buffer and
  stores its block of the result into the output buffer (one store that covers it).
-/
import proofs.«111238_g66666482369179_cont_9to1_m_93_3_alg».proof.Proof.KernelIdeal.RunB
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point where only the third branch is taken: the inputs and both scratch buffers are handed back as
    they were, the output buffer with the pieces `LS` written over what it held. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) :
    { LS : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LS) ∗ owns (c : Thread nD τ) arg9 fullShare s0 ∗ owns (c : Thread nD τ) arg10 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Body

end
-- ==== Proof.KernelIdeal.BodyPieces.lean ====
/-
  What the runs of the three kinds of grid point leave in the buffers they store into, read off the pieces each run
  found: the first point leaves x·W0 in the first scratch buffer (its one store covers the buffer, and the later load
  reads that product back); a point of the first sweep writes one piece into the second scratch buffer, its 400 rows of
  the hidden activation, at the point's row offset; a point of the second sweep leaves its block of the result in the
  output buffer (one covering store).
-/
import proofs.«111238_g66666482369179_cont_9to1_m_93_3_alg».proof.Proof.KernelIdeal.RunC
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The one store into the first scratch buffer covers it. -/
theorem coverA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) (y : S10000x128.Idx) :
    ∃ p ∈ (runA c i arg2 harg2 arg3 harg3 arg4 harg4 arg5 harg5 arg6 harg6 arg7 harg7 arg8 harg8 arg9 harg9 arg10 harg10 hc0 hc1 hc2 x0 x1 x2 x3 x4 x5 y8 s1).1.1, y ∈ p.1.set := by
  unfold runA
  dsimp only
  sl_unfold_run_names
  refine ⟨_, List.mem_singleton_self _, ?_⟩
  exact View.mem_set_unit_zero (S := S10000x128) hz inb_S10000x128_S10000x128_0_0 y

/-- After the first point the first scratch buffer holds x·W0, whatever it held before. -/
theorem runA_s0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 x4 x5 y8 s1).1.1)
      = k0_pay1 x0 x2 := by
  rw [View.read_writes_eq_canon _ _ _ (coverA c i arg2 harg2 arg3 harg3 arg4 harg4 arg5 harg5 arg6 harg6 arg7 harg7 arg8 harg8 arg9 harg9 arg10 harg10 hc0 hc1 hc2 x0 x1 x2 x3 x4 x5 y8 s1)]
  unfold runA
  dsimp only
  sl_unfold_run_names
  rw [View.canon_unit_zero (S := S10000x128) hz]
  simp only [View.readAt_eq_ld, harg2.read_unread, harg4.read_unread, View.ld_unit_zero (S := S10000x128) hz, View.ld_unit_zero (S := S128x128) hz]

/-- The first point writes one piece into the second scratch buffer: rows [0, 400) of the hidden activation, formed from
    the product it has just stored and read back. -/
theorem runA_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s1 : Vec F S10000x64 .f32) :
    (runA c i arg2 harg2 arg3 harg3 arg4 harg4 arg5 harg5 arg6 harg6 arg7 harg7 arg8 harg8 arg9 harg9 arg10 harg10 hc0 hc1 hc2 x0 x1 x2 x3 x4 x5 y8 s1).1.2
      = [⟨Rect.unit (s := S10000x64) (k0_off1 i) S400x64.size (k0_off1_inb i hc1), k0_pay2 x1 (k0_pay1 x0 x2) x3 x4⟩] := by
  unfold runA
  dsimp only
  sl_unfold_run_names
  rw [View.readCov_unit_zero (S := S10000x128) _ hz]
  simp only [View.readAt_eq_ld, harg2.read_unread, harg3.read_unread, harg4.read_unread, harg5.read_unread, harg6.read_unread,
    View.ld_unit_zero (S := S10000x128) hz, View.ld_unit_zero (S := S128x128) hz, View.ld_unit_zero (S := S400x10000) hz,
    View.ld_unit_zero (S := S1x128) hz, View.ld_unit_zero (S := S128x64) hz]

/-- A later point of the first sweep writes one piece into the second scratch buffer: its 400 rows of the hidden
    activation, formed from the product `s0` it finds in the first. -/
theorem runB_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : cond0_1 i) (hc2 : ¬cond0_2 i)
    (x0 : Vec F S10000x128 .f32) (x1 : Vec F S400x10000 .f32) (x2 : Vec F S128x128 .f32) (x3 : Vec F S1x128 .f32) (x4 : Vec F S128x64 .f32) (x5 : Vec F S1x64 .f32) (y8 : Vec F S400x64 .f32) (s0 : Vec F S10000x128 .f32) (s1 : Vec F S10000x64 .f32) :
    (runB c i arg2 harg2 arg3 harg3 arg4 harg4 arg5 harg5 arg6 harg6 arg7 harg7 arg8 harg8 arg9 harg9 arg10 harg10 hc0 hc1 hc2 x0 x1 x2 x3 x4 x5 y8 s0 s1).1
      = [⟨Rect.unit (s := S10000x64) (k0_off1 i) S400x64.size (k0_off1_inb i hc1), k0_pay2 x1 s0 x3 x4⟩] := by
  unfold runB
  dsimp only
  sl_unfold_run_names
  simp only [View.readAt_eq_ld, harg3.read_unread, harg5.read_unread, harg6.read_unread, harg9.read_unread,
    View.ld_unit_zero (S := S10000x128) hz, View.ld_unit_zero (S := S400x10000) hz,
    View.ld_unit_zero (S := S1x128) hz, View.ld_unit_zero (S := S128x64) hz]

/-- The one store of a point of the second sweep covers the output buffer. -/
theorem coverC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) (y : S400x64.Idx) :
    ∃ p ∈ (runC c i arg2 harg2 arg3 harg3 arg4 harg4 arg5 harg5 arg6 harg6 arg7 harg7 arg8 harg8 arg9 harg9 arg10 harg10 hc0 hc1 hc2 x0 x1 x2 x3 x4 x5 s0 s1).1, y ∈ p.1.set := by
  unfold runC
  dsimp only
  sl_unfold_run_names
  refine ⟨_, List.mem_singleton_self _, ?_⟩
  exact View.mem_set_unit_zero (S := S400x64) hz inb_S400x64_S400x64_0_0 y

/-- After a point of the second sweep the output buffer holds the point's block of the result, formed from the hidden
    activation `s1` it finds in the second scratch buffer. -/
theorem runC_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬cond0_0 i) (hc1 : ¬cond0_1 i) (hc2 : cond0_2 i)
    (x0 : Vec F S10000x128 .f32) (x1 : Vec F S400x10000 .f32) (x2 : Vec F S128x128 .f32) (x3 : Vec F S1x128 .f32) (x4 : Vec F S128x64 .f32) (x5 : Vec F S1x64 .f32) (s0 : Vec F S10000x128 .f32) (s1 : Vec F S10000x64 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 x4 x5 s0 s1).1)
      = k0_pay3 x1 s1 x5 := by
  rw [View.read_writes_eq_canon _ _ _ (coverC c i arg2 harg2 arg3 harg3 arg4 harg4 arg5 harg5 arg6 harg6 arg7 harg7 arg8 harg8 arg9 harg9 arg10 harg10 hc0 hc1 hc2 x0 x1 x2 x3 x4 x5 s0 s1)]
  unfold runC
  dsimp only
  sl_unfold_run_names
  rw [View.canon_unit_zero (S := S400x64) hz]
  simp only [View.readAt_eq_ld, harg3.read_unread, harg7.read_unread, harg10.read_unread,
    View.ld_unit_zero (S := S10000x64) hz, View.ld_unit_zero (S := S400x10000) hz, View.ld_unit_zero (S := S1x64) hz]

end Cert.KernelIdeal.Body

end
-- ==== Proof.KernelIdeal.BodyData.lean ====
/-
  The proof data of the pipelined region and the body obligation at every grid point.

  Between points the first scratch buffer holds x·W0 (from point 0 on) and the second scratch buffer holds, in rows
  [0, 400·min(n, 25)), the rows of the hidden activation relu(adj·(x·W0) + b0)·W1 the first n points have formed; its
  other rows are not described. After the first sweep every row is formed, so the buffer IS the hidden activation, and a
  point of the second sweep leaves in the output block relu(adj_block·hidden + b1). The output window is idle during the
  first sweep (its buffer is handed back as found) and is written back at every point of the second.
-/
import proofs.«111238_g66666482369179_cont_9to1_m_93_3_alg».proof.Proof.KernelIdeal.BodyPieces
import Idealize.ShloMosaic.Lib.ValueIdx
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
abbrev t0 : Fin cfg0.N := ⟨0, by rw [N50]; decide⟩

/-- x·W0 as the first point forms it. -/
def s0Of (c : Dev nD) : Vec F S10000x128 .f32 := k0_pay1 (iblk m c 0 t0) (iblk m c 2 t0)

/-- Rows [400 j, 400 j + 400) of the hidden activation as point j forms them. -/
def s1Blk (c : Dev nD) (j : Fin cfg0.N) : Vec F S400x64 .f32 :=
  k0_pay2 (iblk m c 1 j) (s0Of m c) (iblk m c 3 j) (iblk m c 4 j)

/-- The second scratch buffer `d` after `n` points: each block of rows a point j < min(n, 25) has formed is in place. -/
def Filled (c : Dev nD) (n : ℕ) (d : Vec F S10000x64 .f32) : Prop :=
  ∀ j : Fin cfg0.N, j.val < n → j.val < 25 → ∀ (idx : S10000x64.Idx) (y : S400x64.Idx),
    (idx 0).val = 400 * j.val + (y 0).val → (idx 1).val = (y 1).val → d idx = s1Blk m c j y

/-- The whole hidden activation: row r is row r mod 400 of block r / 400. -/
def s1Full (c : Dev nD) : Vec F S10000x64 .f32 := fun idx =>
  s1Blk m c ⟨(idx 0).val / 400, by have : (idx 0).val < 10000 := (idx 0).isLt; rw [N50]; omega⟩
    (ix2 (n0 := 400) (n1 := 64) ⟨(idx 0).val % 400, Nat.mod_lt _ (by decide)⟩ ⟨(idx 1).val, (idx 1).isLt⟩)

/-- Once all 25 blocks are in place the buffer is the hidden activation. -/
theorem Filled.full {c : Dev nD} {n : ℕ} {d : Vec F S10000x64 .f32} (h : Filled m c n d) (hn : 25 ≤ n) : d = s1Full m c := by
  funext idx
  have hlt : (idx 0).val < 10000 := (idx 0).isLt
  exact h ⟨(idx 0).val / 400, by rw [N50]; omega⟩ (by dsimp only; omega) (by dsimp only; omega) idx _
    (by dsimp only [ix2]; omega) rfl

/-- In the second sweep nothing more is formed. -/
theorem Filled.later {c : Dev nD} {n : ℕ} {d : Vec F S10000x64 .f32} (h : Filled m c n d) (hn : 25 ≤ n) : Filled m c (n + 1) d :=
  fun j _ hj25 => h j (by omega) hj25

/-- A point t of the first sweep puts its block in place and leaves the earlier blocks alone. -/
theorem Filled.step {c : Dev nD} (t : Fin cfg0.N) (ht : t.val < 25) {d : Vec F S10000x64 .f32} (hd : Filled m c t.val d)
    (inb : ∀ a, k0_off1 (grid0.coords t) a + S400x64.size a ≤ S10000x64.size a) :
    Filled m c (t.val + 1) (scM0_1.view.read (Elt F) (scM0_1.view.writes (Elt F) ((Memref.isWhole_whole cc0_scratch1).unread d)
      [⟨Rect.unit (s := S10000x64) (k0_off1 (grid0.coords t)) S400x64.size inb, s1Blk m c t⟩])) := by
  have hoff : k0_off1 (grid0.coords t) = ![400 * t.val, 0] := by rw [off1_eq t, Nat.mod_eq_of_lt ht]
  intro j hj hj25 idx y h0 h1
  by_cases hjt : j = t
  · subst hjt
    exact View.read_writes_cons_rows_of_mem (d := ![10000, 64]) scM0_1.view _ inb (s1Blk m c j) [] idx y hoff h0 h1
  · have hne : j.val ≠ t.val := fun h => hjt (Fin.ext h)
    have hy0 : (y 0).val < 400 := (y 0).isLt
    rw [View.read_writes_cons_rows_of_not_mem (d := ![10000, 64]) scM0_1.view _ inb (s1Blk m c t) [] idx hoff (W := 400) rfl (by omega),
      View.writes_nil, (Memref.isWhole_whole cc0_scratch1).read_unread]
    exact hd j (by omega) hj25 idx y h0 h1

/-- What the output buffer holds after point t of the second sweep. -/
def outBlk (c : Dev nD) (t : Fin cfg0.N) : Vec F S400x64 .f32 := k0_pay3 (iblk m c 1 t) (s1Full m c) (iblk m c 5 t)

/-! ## The invariant between points -/

def PhiS (c : Dev nD) : (n : ℕ) → n ≤ cfg0.N → sProp 𝕄
  | 0, _ => Pipeline.ΦA spec0 c
  | n + 1, _ => iprop(iprop(owns (c : Thread nD τ) scM0_0 fullShare (s0Of m c) ∗ (∃ d, ⌜Filled m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (s0Of m c) ∗ (∃ d, ⌜Filled m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (s0Of m c) ∗ (∃ d, ⌜Filled m c n d⌝ ∗ owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N50
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val < 25
  · have hc1 : cond0_1 (grid0.coords t) := (hcond0_1 t).mpr h1
    have hc2 : ¬cond0_2 (grid0.coords t) := fun h => absurd ((hcond0_2 t).mp h) (by omega)
    rw [Dat.leavesExact_idle (dats m 0 c) 6 t (by rw [idle0_6 t]; exact decide_eq_true h1) (by rw [flush0_6 t]; exact decide_eq_false (by omega))]
    by_cases hz : t.val = 0
    · obtain rfl : t = t0 := Fin.ext hz
      have hc0 : cond0_0 (grid0.coords t0) := (hcond0_0 t0).mpr rfl
      rw [PhiS_castSucc m c t0, PhiS_zero m c _ _ rfl, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) hc0 hc1 hc2 (iblk m c 0 t0) (iblk m c 1 t0) (iblk m c 2 t0) (iblk m c 3 t0) (iblk m c 4 t0) (iblk m c 5 t0) ((dats m 0 c).before 6 t0 d6) e1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, ⟨%f9, HS0⟩, HS1⟩
      isplitl [HS0 HS1 Hg]
      · isplitl [HS0 HS1]
        · isplitl [HS0]
          · unfold owns; iexists _; isplitr
            swap; · iexact HS0
            ipureintro; exact runA_s0 c _ _ _ _ _ _ _ _ _ _ _ _ _ _ _ _ _ _ _ hc0 hc1 hc2 _ _ _ _ _ _ _ _ f9
          · rw [runA_s1]
            iexists _; isplitr
            swap; · unfold owns; iexists _; isplitr
                    swap; · iexact HS1
                    ipureintro; rfl
            ipureintro
            exact Filled.step m t0 h1 (fun j hj => absurd hj (Nat.not_lt_zero _)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => hz ((hcond0_0 t).mp h)
      rw [PhiS_castSucc m c t, PhiS_pos m c _ _ hz]
      iintro ⟨⟨⟨HS0, ⟨%e1, %hF, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) ((dats m 0 c).before 6 t d6) (s0Of m c) e1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · rw [runB_s1]
            iexists _; isplitr
            swap; · unfold owns; iexists _; isplitr
                    swap; · iexact HS1
                    ipureintro; rfl
            ipureintro
            exact Filled.step m t h1 hF _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 25 ≤ t.val := by omega
    have hz : t.val ≠ 0 := by omega
    have hc0 : ¬cond0_0 (grid0.coords t) := fun h => hz ((hcond0_0 t).mp h)
    have hc1 : ¬cond0_1 (grid0.coords t) := fun h => h1 ((hcond0_1 t).mp h)
    have hc2 : cond0_2 (grid0.coords t) := (hcond0_2 t).mpr h2
    rw [show (dats m 0 c).leavesExact 6 t = owns (c : Thread nD τ) (ms0_6 t) fullShare ((dats m 0 c).after 6 t) from by
      unfold Dat.leavesExact; rw [idle0_6 t, decide_eq_false h1], after0_6]
    rw [PhiS_castSucc m c t, PhiS_pos m c _ _ hz]
    iintro ⟨⟨⟨HS0, ⟨%e1, %hF, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = s1Full m c := hF.full m h2
    iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 hc2 (iblk m c 0 t) (iblk m c 1 t) (iblk m c 2 t) (iblk m c 3 t) (iblk m c 4 t) (iblk m c 5 t) (s0Of m c) (s1Full m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f8, H6⟩, HS0, HS1⟩
    isplitl [HS0 HS1 Hg]
    · isplitl [HS0 HS1]
      · isplitl [HS0]
        · iexact HS0
        · iexists _; isplitr
          swap; · iexact HS1
          ipureintro; exact hF.later m h2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact runC_out c _ _ _ _ _ _ _ _ _ _ _ _ _ _ _ _ _ _ _ hc0 hc1 hc2 _ _ _ _ _ _ _ _ f8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; decide), PhiA0_eq]
  iintro ⟨⟨HS0, ⟨%e1, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates without a fault; the result array ends at what the write-backs of
    the second sweep leave in it, every other array as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«111238_g66666482369179_cont_9to1_m_93_3_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.Spec.lean ====
/-
  Two stacked graph-convolution layers over a dense adjacency, on extended reals:

      encoder X A W0 b0 W1 b1 = relu (A · (relu (A · (X · W0) + b0) · W1) + b1),

  every product the row-by-column sum, every bias added to each row, the rectifier the maximum with zero. A product's
  row depends only on the same row of its left factor, and the rectified sum's entry only on the same entry: so a block
  of rows of a stage, formed from the matching block of rows of the adjacency, is the matching block of the whole stage.
-/
import proofs.«111238_g66666482369179_cont_9to1_m_93_3_alg».proof.Proof.LibDenseSpec

noncomputable section

namespace Cert.Gcn

open Idealize.ShloMosaic Idealize.ShloMosaic.ValueIdx

variable {N C H O : ℕ}

/-- The hidden activation relu (A · (X · W0) + b0) · W1. -/
def hidden (X : FVec Ideal ⟨2, ![N, C]⟩ .f32) (A : FVec Ideal ⟨2, ![N, N]⟩ .f32) (W0 : FVec Ideal ⟨2, ![C, H]⟩ .f32)
    (b0 : FVec Ideal ⟨1, ![H]⟩ .f32) (W1 : FVec Ideal ⟨2, ![H, O]⟩ .f32) : FVec Ideal ⟨2, ![N, O]⟩ .f32 :=
  linear (biasRelu (linear A (linear X W0)) b0) W1

/-- The two layers. -/
def encoder (X : FVec Ideal ⟨2, ![N, C]⟩ .f32) (A : FVec Ideal ⟨2, ![N, N]⟩ .f32) (W0 : FVec Ideal ⟨2, ![C, H]⟩ .f32)
    (b0 : FVec Ideal ⟨1, ![H]⟩ .f32) (W1 : FVec Ideal ⟨2, ![H, O]⟩ .f32) (b1 : FVec Ideal ⟨1, ![O]⟩ .f32) :
    FVec Ideal ⟨2, ![N, O]⟩ .f32 :=
  biasRelu (linear A (hidden X A W0 b0 W1)) b1

variable {R Rb K M : ℕ}

/-- A product's row p, formed from a left factor whose row p is row r of another, is row r of the other's product. -/
theorem linear_row_of_row (Xb : FVec Ideal ⟨2, ![Rb, K]⟩ .f32) (X : FVec Ideal ⟨2, ![R, K]⟩ .f32) (W : FVec Ideal ⟨2, ![K, M]⟩ .f32)
    (p : Fin Rb) (r : Fin R) (h : ∀ k : Fin K, Xb (ix2 p k) = X (ix2 r k)) (c : Fin M) :
    linear Xb W (ix2 p c) = linear X W (ix2 r c) := by
  rw [linear_ix2, linear_ix2]
  exact Finset.sum_congr rfl fun k _ => by rw [h k]

/-- The same for the rectified sum, entry by entry. -/
theorem biasRelu_entry_of_entry (Ab : FVec Ideal ⟨2, ![Rb, K]⟩ .f32) (A : FVec Ideal ⟨2, ![R, K]⟩ .f32) (b : FVec Ideal ⟨1, ![K]⟩ .f32)
    (p : Fin Rb) (r : Fin R) (k : Fin K) (h : Ab (ix2 p k) = A (ix2 r k)) :
    biasRelu Ab b (ix2 p k) = biasRelu A b (ix2 r k) := by
  rw [biasRelu_ix2, biasRelu_ix2, h]

end Cert.Gcn

end
-- ==== Proof.KernelIdeal.PayloadValue.lean ====
/-
  The kernel's three stored values at the ideal values, as stages of the two-layer encoder: the first point's store is
  the product x·W0; a first-sweep point's store is relu(adj_block·s0 + b0)·W1 for the block of adjacency rows it is
  handed and the product s0 it finds; a second-sweep point's store is relu(adj_block·s1 + b1). The bias arrives as a
  one-row matrix, whose row is the bias vector.
-/
import proofs.«111238_g66666482369179_cont_9to1_m_93_3_alg».proof.Proof.Gen.KernelIdeal.Skeleton
import proofs.«111238_g66666482369179_cont_9to1_m_93_3_alg».proof.Proof.LibMatmulSum
import proofs.«111238_g66666482369179_cont_9to1_m_93_3_alg».proof.Proof.LibBiasRow
import proofs.«111238_g66666482369179_cont_9to1_m_93_3_alg».proof.Proof.Spec

set_option maxRecDepth 16384

noncomputable section

namespace Cert.KernelIdeal.KValue

open Cert.KernelIdeal Cert.KernelIdeal.Gen Idealize.ShloMosaic Idealize.ShloMosaic.ValueIdx Cert.Gcn

/-! ## The four products -/

theorem dx_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dx_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dx_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dx_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- This product into a zero accumulator is the row-by-column sum. -/
theorem dx_prod (l : FVec Ideal S10000x128 .f32) (r : FVec Ideal S128x128 .f32) :
    matmul dot_S10000x128_S128x128_S10000x128_1_0_0_1_n_n none l r (constant (F := Ideal) S10000x128 .f32 0x00000000#32) = linear l r := by
  funext i
  exact Cert.GraphConv.matmul_zero_sum dot_S10000x128_S128x128_S10000x128_1_0_0_1_n_n none rfl rfl dx_l0 dx_l1 dx_r0 dx_r1 l r i

theorem da_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem da_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem da_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem da_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- This product into a zero accumulator is the row-by-column sum. -/
theorem da_prod (l : FVec Ideal S400x10000 .f32) (r : FVec Ideal S10000x128 .f32) :
    matmul dot_S400x10000_S10000x128_S400x128_1_0_0_1_n_n none l r (constant (F := Ideal) S400x128 .f32 0x00000000#32) = linear l r := by
  funext i
  exact Cert.GraphConv.matmul_zero_sum dot_S400x10000_S10000x128_S400x128_1_0_0_1_n_n none rfl rfl da_l0 da_l1 da_r0 da_r1 l r i

theorem dh_l0 (i : S400x64.Idx) (q : dot_S400x128_S128x64_S400x64_1_0_0_1_n_n.contr.Idx) : (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem dh_l1 (i : S400x64.Idx) (q : dot_S400x128_S128x64_S400x64_1_0_0_1_n_n.contr.Idx) : (dot_S400x128_S128x64_S400x64_1_0_0_1_n_n.lhsIdx i q 1).val = (q ⟨0, by decide⟩).val :=
  dot_S400x128_S128x64_S400x64_1_0_0_1_n_n.lhsIdx_val_of_single rfl i q
theorem dh_r0 (i : S400x64.Idx) (q : dot_S400x128_S128x64_S400x64_1_0_0_1_n_n.contr.Idx) : (dot_S400x128_S128x64_S400x64_1_0_0_1_n_n.rhsIdx i q 0).val = (q ⟨0, by decide⟩).val :=
  dot_S400x128_S128x64_S400x64_1_0_0_1_n_n.rhsIdx_val_of_single rfl i q
theorem dh_r1 (i : S400x64.Idx) (q : dot_S400x128_S128x64_S400x64_1_0_0_1_n_n.contr.Idx) : (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- This product into a zero accumulator is the row-by-column sum. -/
theorem dh_prod (l : FVec Ideal S400x128 .f32) (r : FVec Ideal S128x64 .f32) :
    matmul dot_S400x128_S128x64_S400x64_1_0_0_1_n_n none l r (constant (F := Ideal) S400x64 .f32 0x00000000#32) = linear l r := by
  funext i
  exact Cert.GraphConv.matmul_zero_sum dot_S400x128_S128x64_S400x64_1_0_0_1_n_n none rfl rfl dh_l0 dh_l1 dh_r0 dh_r1 l r i

theorem do_l0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem do_l1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem do_r0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem do_r1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- This product into a zero accumulator is the row-by-column sum. -/
theorem do_prod (l : FVec Ideal S400x10000 .f32) (r : FVec Ideal S10000x64 .f32) :
    matmul dot_S400x10000_S10000x64_S400x64_1_0_0_1_n_n none l r (constant (F := Ideal) S400x64 .f32 0x00000000#32) = linear l r := by
  funext i
  exact Cert.GraphConv.matmul_zero_sum dot_S400x10000_S10000x64_S400x64_1_0_0_1_n_n none rfl rfl do_l0 do_l1 do_r0 do_r1 l r i

/-! ## The bias row and the rectifier, the sum not re-cast -/

/-- relu (a + b) with the bias a one-row block, at entry (p, k). -/
theorem biasRelu_rowBlock_plain {R K : ℕ} (a : FVec Ideal ⟨2, ![R, K]⟩ .f32) (x1 : FVec Ideal ⟨2, ![1, K]⟩ .f32)
    (h3 : (⟨2, ![1, K]⟩ : Shape).Broadcasts ⟨2, ![R, K]⟩) :
    maximumf (addf a (broadcastTo ⟨2, ![R, K]⟩ x1 h3))
        (broadcast ⟨2, ![R, K]⟩ (Scalar.ofBits (F := Ideal) .f32 0x00000000#32))
      = biasRelu a (rowOf x1) := by
  funext i
  obtain ⟨p, k, rfl⟩ : ∃ (p : Fin R) (k : Fin K), i = ix2 p k := ⟨i 0, i 1, eq_ix2 i⟩
  rw [biasRelu_ix2, rowOf_ix1, maximumf_apply, addf_apply, broadcast_apply, broadcastTo_1b_ab_apply]
  rfl

/-! ## The three stored values -/

theorem pay1_eq (x0 : Vec Ideal S10000x128 .f32) (x2 : Vec Ideal S128x128 .f32) : k0_pay1 x0 x2 = linear x0 x2 := by
  unfold k0_pay1
  dsimp only
  simp only [shapeCast_self]
  rw [dx_prod]

theorem pay2_eq (x1 : Vec Ideal S400x10000 .f32) (s0 : Vec Ideal S10000x128 .f32) (x3 : Vec Ideal S1x128 .f32) (x4 : Vec Ideal S128x64 .f32) :
    k0_pay2 x1 s0 x3 x4 = linear (biasRelu (linear x1 s0) (rowOf x3)) x4 := by
  unfold k0_pay2
  dsimp only
  simp only [shapeCast_self]
  rw [dh_prod, da_prod, biasRelu_rowBlock_plain]

theorem pay3_eq (x1 : Vec Ideal S400x10000 .f32) (s1 : Vec Ideal S10000x64 .f32) (x5 : Vec Ideal S1x64 .f32) :
    k0_pay3 x1 s1 x5 = biasRelu (linear x1 s1) (rowOf x5) := by
  unfold k0_pay3
  dsimp only
  simp only [shapeCast_self]
  rw [do_prod, biasRelu_rowBlock_plain]

end Cert.KernelIdeal.KValue

end
-- ==== Proof.KernelIdeal.ArrayValue.lean ====
/-
  The result array after the kernel's run, at the ideal values, is the two-layer encoder of the argument arrays.

  Window 1 hands point t rows [400 (t mod 25), +400) of the adjacency; the other input windows hand every point their
  whole array (the two biases as one-row matrices whose row is the bias vector). So x·W0 in the first scratch buffer is
  the product of the whole arrays, block j of the second scratch buffer is rows [400 j, +400) of the hidden activation,
  the whole buffer is the hidden activation, and the output block of point t ≥ 25 is rows [400 (t − 25), +400) of the
  encoder. Those 25 blocks are written back and tile the result array.
-/
import proofs.«111238_g66666482369179_cont_9to1_m_93_3_alg».proof.Proof.KernelIdeal.BodyData
import proofs.«111238_g66666482369179_cont_9to1_m_93_3_alg».proof.Proof.KernelIdeal.PayloadValue
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body Cert.Gcn

variable (m : (ℓ : Loc nD τ sig) → Buf (Elt Ideal) ℓ) (ρ : Dev nD → PrngReg)

/-! ## The windows' index maps over the grid -/

theorem idx_whole : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_adj : ∀ t : Fin cfg0.N, win0_1.index t (0 : Fin 2) = t.val % 25 ∧ win0_1.index t (1 : Fin 2) = 0 :=
  (by decide +kernel : ∀ t : Fin grid0.N, _)

theorem idx_out : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-! ## The argument arrays as the region finds them -/

abbrev aX (c : Dev nD) : FVec Ideal S10000x128 .f32 := V m c main_arg0
abbrev aA (c : Dev nD) : FVec Ideal S10000x10000 .f32 := V m c main_arg1
abbrev aW0 (c : Dev nD) : FVec Ideal S128x128 .f32 := V m c main_arg2
abbrev aB0 (c : Dev nD) : FVec Ideal S128 .f32 := V m c main_arg3
abbrev aW1 (c : Dev nD) : FVec Ideal S128x64 .f32 := V m c main_arg4
abbrev aB1 (c : Dev nD) : FVec Ideal S64 .f32 := V m c main_arg5

/-- The one-row matrix the first bias is handed as: the bias vector re-cast. -/
theorem row_b0 (c : Dev nD) : (V m c main_call0_v0 : S1x128.Idx → EReal) = shapeCast S1x128 (aB0 m c) shapeCasts_S128_S1x128 := by
  dsimp only [Gen.V, Gen.hostOps0]; after_results; rfl

/-- The same for the second bias. -/
theorem row_b1 (c : Dev nD) : (V m c main_call0_v1 : S1x64.Idx → EReal) = shapeCast S1x64 (aB1 m c) shapeCasts_S64_S1x64 := by
  dsimp only [Gen.V, Gen.hostOps0]; after_results; rfl

/-! ## The blocks the points are handed -/

theorem blk0 (c : Dev nD) (t : Fin cfg0.N) : (iblk m c 0 t : S10000x128.Idx → EReal) = aX m c := by
  obtain ⟨e0, e1, -⟩ := idx_whole t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk2 (c : Dev nD) (t : Fin cfg0.N) : (iblk m c 2 t : S128x128.Idx → EReal) = aW0 m c := by
  obtain ⟨-, -, e0, e1, -⟩ := idx_whole t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : (iblk m c 3 t : S1x128.Idx → EReal) = V m c main_call0_v0 := by
  obtain ⟨-, -, -, -, e0, e1, -⟩ := idx_whole t
  funext y
  show V m c main_call0_v0 (((cfg0.win 3).blk t).view.emb y) = V m c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk4 (c : Dev nD) (t : Fin cfg0.N) : (iblk m c 4 t : S128x64.Idx → EReal) = aW1 m c := by
  obtain ⟨-, -, -, -, -, -, e0, e1, -⟩ := idx_whole t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 64 + 1 * (y 1).val = (y 1).val; omega

theorem blk5 (c : Dev nD) (t : Fin cfg0.N) : (iblk m c 5 t : S1x64.Idx → EReal) = V m c main_call0_v1 := by
  obtain ⟨-, -, -, -, -, -, -, -, e0, e1⟩ := idx_whole t
  funext y
  show V m c main_call0_v1 (((cfg0.win 5).blk t).view.emb y) = V m c main_call0_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Row p of the adjacency block of point t is row 400 (t mod 25) + p of the adjacency. -/
theorem blk1_apply (c : Dev nD) (t : Fin cfg0.N) (p : Fin 400) (k : Fin 10000) :
    (iblk m c 1 t : S400x10000.Idx → EReal) (ix2 p k)
      = aA m c (ix2 (n0 := 10000) (n1 := 10000) ⟨400 * (t.val % 25) + p.val, by have := Nat.mod_lt t.val (show 0 < 25 by decide); omega⟩ k) := by
  obtain ⟨e0, e1⟩ := idx_adj t
  show V m c main_arg1 (((cfg0.win 1).blk t).view.emb (ix2 p k)) = V m c main_arg1 _
  refine congrArg _ (funext fun a => Fin.ext ?_)
  match a with
  | ⟨0, _⟩ => show win0_1.index t (0 : Fin 2) * 400 + 1 * p.val = 400 * (t.val % 25) + p.val; omega
  | ⟨1, _⟩ => show win0_1.index t (1 : Fin 2) * 10000 + 1 * k.val = k.val; omega

theorem rowOf3 (c : Dev nD) (t : Fin cfg0.N) : rowOf (iblk m c 3 t : S1x128.Idx → EReal) = aB0 m c := by
  rw [blk3, row_b0, rowOf_shapeCast]

theorem rowOf5 (c : Dev nD) (t : Fin cfg0.N) : rowOf (iblk m c 5 t : S1x64.Idx → EReal) = aB1 m c := by
  rw [blk5, row_b1, rowOf_shapeCast]

/-! ## The two scratch buffers and the output block -/

theorem s0_eq (c : Dev nD) : s0Of m c = linear (aX m c) (aW0 m c) := by
  unfold s0Of
  rw [pay1_eq, blk0, blk2]

/-- Block j of the second scratch buffer is rows [400 j, +400) of the hidden activation. -/
theorem s1Blk_apply (c : Dev nD) (j : Fin cfg0.N) (hj : j.val < 25) (p : Fin 400) (q : Fin 64) :
    s1Blk m c j (ix2 p q)
      = hidden (aX m c) (aA m c) (aW0 m c) (aB0 m c) (aW1 m c) (ix2 (n0 := 10000) (n1 := 64) ⟨400 * j.val + p.val, by omega⟩ q) := by
  unfold s1Blk Cert.Gcn.hidden
  rw [pay2_eq, s0_eq, blk4, rowOf3]
  refine linear_row_of_row _ _ _ p _ (fun k => biasRelu_entry_of_entry _ _ _ p _ k
    (linear_row_of_row _ _ _ p _ (fun k' => ?_) k)) q
  rw [blk1_apply]
  exact congrArg (aA m c) (congrArg (fun r => ix2 r k') (Fin.ext (by show 400 * (j.val % 25) + p.val = 400 * j.val + p.val; rw [Nat.mod_eq_of_lt hj])))

/-- The second scratch buffer after the first sweep is the hidden activation. -/
theorem s1Full_eq (c : Dev nD) : s1Full m c = hidden (aX m c) (aA m c) (aW0 m c) (aB0 m c) (aW1 m c) := by
  funext idx
  have hlt : (idx 0).val < 10000 := (idx 0).isLt
  unfold s1Full
  rw [s1Blk_apply m c _ (by dsimp only; omega)]
  refine congrArg _ (funext fun a => Fin.ext ?_)
  match a with
  | ⟨0, _⟩ => show 400 * ((idx 0).val / 400) + (idx 0).val % 400 = (idx 0).val; omega
  | ⟨1, _⟩ => rfl

/-- The output block of a point t of the second sweep is rows [400 (t − 25), +400) of the encoder. -/
theorem outBlk_apply (c : Dev nD) (t : Fin cfg0.N) (ht : 25 ≤ t.val) (p : Fin 400) (q : Fin 64) :
    outBlk m c t (ix2 p q)
      = encoder (aX m c) (aA m c) (aW0 m c) (aB0 m c) (aW1 m c) (aB1 m c)
          (ix2 (n0 := 10000) (n1 := 64) ⟨400 * (t.val - 25) + p.val, by have := lt_of_lt_of_eq t.isLt N50; omega⟩ q) := by
  have hN := lt_of_lt_of_eq t.isLt N50
  unfold outBlk encoder
  rw [pay3_eq, s1Full_eq, rowOf5]
  refine biasRelu_entry_of_entry _ _ _ p _ q (linear_row_of_row _ _ _ p _ (fun k' => ?_) q)
  rw [blk1_apply]
  exact congrArg (aA m c) (congrArg (fun r => ix2 r k') (Fin.ext (by show 400 * (t.val % 25) + p.val = 400 * (t.val - 25) + p.val; omega)))

/-! ## From the blocks to the array -/

/-- The result array the write-backs leave. -/
abbrev result (c : Dev nD) : Buf (Elt Ideal) ((c : Thread nD τ).loc main_v0) :=
  encoder (aX m c) (aA m c) (aW0 m c) (aB0 m c) (aW1 m c) (aB1 m c)

/-- What point t writes back is block t of the encoder. -/
theorem flushed_eq (c : Dev nD) (t : Fin cfg0.N) (hf : (cfg0.win 6).flush t = true) :
    (dats m 0 c).flushed 6 t = ((cfg0.win 6).blk t).view.read (Elt Ideal) (result m c) := by
  have ht : 25 ≤ t.val := by rw [flush0_6 t] at hf; exact of_decide_eq_true hf
  obtain ⟨e0, e1⟩ := idx_out t ht
  show (cfg0.win 6).cut (grid0.coords t) ((dats m 0 c).after 6 t) = _
  rw [after0_6]
  funext y
  obtain ⟨p, q, rfl⟩ : ∃ (p : Fin 400) (q : Fin 64), y = ix2 p q := ⟨y 0, y 1, eq_ix2 y⟩
  show outBlk m c t (ix2 p q) = result m c (((cfg0.win 6).blk t).view.emb (ix2 p q))
  rw [outBlk_apply m c t ht]
  refine congrArg _ (funext fun a => Fin.ext ?_)
  match a with
  | ⟨0, _⟩ => show 400 * (t.val - 25) + p.val = win0_6.index t (0 : Fin 2) * 400 + 1 * p.val; omega
  | ⟨1, _⟩ => show q.val = win0_6.index t (1 : Fin 2) * 64 + 1 * q.val; omega

theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v0).slice (win0_6.rect t)).set ↔ _
  rw [View.set_slice_whole, Rect.mem_set_unit]
  exact Iff.rfl

/-- Row r of the result array is in the block point 25 + r / 400 writes back. -/
theorem cover (c : Dev nD) (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  refine ⟨⟨25 + (i 0).val / 400, by rw [N50]; omega⟩, ?_, ?_⟩
  · rw [flush0_6]; exact decide_eq_true (by dsimp only; omega)
  · obtain ⟨e0, e1⟩ := idx_out ⟨25 + (i 0).val / 400, by rw [N50]; omega⟩ (by dsimp only; omega)
    rw [mem_blk6]
    intro a
    match a with
    | ⟨0, _⟩ => show win0_6.index _ (0 : Fin 2) * 400 ≤ (i 0).val ∧ (i 0).val < win0_6.index _ (0 : Fin 2) * 400 + 400; rw [e0]; dsimp only; omega
    | ⟨1, _⟩ => show win0_6.index _ (1 : Fin 2) * 64 ≤ (i 1).val ∧ (i 1).val < win0_6.index _ (1 : Fin 2) * 64 + 64; rw [e1]; omega

/-- The result array after the run is the encoder of the argument arrays. -/
theorem final (c : Dev nD) : (dats m 0 c).arrAt 6 cfg0.N = result m c :=
  (dats m 0 c).arrAt_eq_of_cover 6 (result m c) (flushed_eq m c) (cover c)

/-- The run: the result array ends at the encoder of the argument arrays as launched, the arguments unchanged. -/
theorem run : θ_run defs (onTc (τ := τ) (main (F := Ideal))) ⟨m, fun _ => 0, ρ⟩ fun r => ∀ c : Dev nD,
      r.2.mem ((c.tc : Thread nD τ).loc main_v0)
        = encoder (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 6).trans ((final m c).trans (by
        show encoder (V m c main_arg0) (V m c main_arg1) (V m c main_arg2) (V m c main_arg3) (V m c main_arg4) (V m c main_arg5) = _
        rw [V_main_arg0, V_main_arg1, V_main_arg2, V_main_arg3, V_main_arg4, V_main_arg5])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KValue

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«111238_g66666482369179_cont_9to1_m_93_3_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.RefSpec.lean ====
/-
  The reference program's result, as a function of its six arguments, is the two-layer encoder: each of its four matrix
  products is the row-by-column sum, and each "add the bias row, take the maximum with zero" is the rectified sum.
-/
import proofs.«111238_g66666482369179_cont_9to1_m_93_3_alg».proof.Proof.Gen.ReferenceIdeal.Read
import proofs.«111238_g66666482369179_cont_9to1_m_93_3_alg».proof.Proof.LibMatmulSum
import proofs.«111238_g66666482369179_cont_9to1_m_93_3_alg».proof.Proof.LibDenseOps
import proofs.«111238_g66666482369179_cont_9to1_m_93_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Gcn

/-- The product of operation v0 is the row-by-column sum. -/
theorem prod_v0 (l r) : Host.dotGeneral (F := Ideal) dot_S10000x128_S128x128_S10000x128_1_0_0_1_n_n none l r = linear l r := by
  funext i
  simp only [Host.dotGeneral]
  exact Cert.GraphConv.dotGeneral_sum dot_S10000x128_S128x128_S10000x128_1_0_0_1_n_n none _ rfl rfl lhs_main_v0_0 lhs_main_v0_1 rhs_main_v0_0 rhs_main_v0_1 l r i

/-- The product of operation v1 is the row-by-column sum. -/
theorem prod_v1 (l r) : Host.dotGeneral (F := Ideal) dot_S10000x10000_S10000x128_S10000x128_1_0_0_1_n_n none l r = linear l r := by
  funext i
  simp only [Host.dotGeneral]
  exact Cert.GraphConv.dotGeneral_sum dot_S10000x10000_S10000x128_S10000x128_1_0_0_1_n_n none _ rfl rfl lhs_main_v1_0 lhs_main_v1_1 rhs_main_v1_0 rhs_main_v1_1 l r i

/-- The product of operation v6 is the row-by-column sum. -/
theorem prod_v6 (l r) : Host.dotGeneral (F := Ideal) dot_S10000x128_S128x64_S10000x64_1_0_0_1_n_n none l r = linear l r := by
  funext i
  simp only [Host.dotGeneral]
  exact Cert.GraphConv.dotGeneral_sum dot_S10000x128_S128x64_S10000x64_1_0_0_1_n_n none _ rfl rfl lhs_main_v6_0 lhs_main_v6_1 rhs_main_v6_0 rhs_main_v6_1 l r i

/-- The product of operation v7 is the row-by-column sum. -/
theorem prod_v7 (l r) : Host.dotGeneral (F := Ideal) dot_S10000x10000_S10000x64_S10000x64_1_0_0_1_n_n none l r = linear l r := by
  funext i
  simp only [Host.dotGeneral]
  exact Cert.GraphConv.dotGeneral_sum dot_S10000x10000_S10000x64_S10000x64_1_0_0_1_n_n none _ rfl rfl lhs_main_v7_0 lhs_main_v7_1 rhs_main_v7_0 rhs_main_v7_1 l r i

/-- The first layer's bias and rectifier. -/
theorem relu_0 (a : FVec Ideal S10000x128 .f32) (b : FVec Ideal S128 .f32) :
    maximumf (addf a (broadcastInDim S10000x128 ![0, 1] bcast_S1x128_S10000x128_0_1 (broadcastInDim S1x128 ![1] bcast_S128_S1x128_1 b)))
        (broadcastInDim S10000x128 ![] bcast_S_S10000x128 (constant (F := Ideal) S_ .f32 0x00000000#32))
      = biasRelu a b := by
  funext i
  obtain ⟨r, k, rfl⟩ : ∃ (r : Fin 10000) (k : Fin 128), i = ix2 r k := ⟨i 0, i 1, eq_ix2 i⟩
  exact biasRelu_host a b bcast_S128_S1x128_1 bcast_S1x128_S10000x128_0_1 bcast_S_S10000x128 r k

/-- The second layer's bias and rectifier. -/
theorem relu_1 (a : FVec Ideal S10000x64 .f32) (b : FVec Ideal S64 .f32) :
    maximumf (addf a (broadcastInDim S10000x64 ![0, 1] bcast_S1x64_S10000x64_0_1 (broadcastInDim S1x64 ![1] bcast_S64_S1x64_1 b)))
        (broadcastInDim S10000x64 ![] bcast_S_S10000x64 (constant (F := Ideal) S_ .f32 0x00000000#32))
      = biasRelu a b := by
  funext i
  obtain ⟨r, k, rfl⟩ : ∃ (r : Fin 10000) (k : Fin 64), i = ix2 r k := ⟨i 0, i 1, eq_ix2 i⟩
  exact biasRelu_host a b bcast_S64_S1x64_1 bcast_S1x64_S10000x64_0_1 bcast_S_S10000x64 r k

/-- The reference's result is the encoder of its arguments. -/
theorem result_eq (x0 : FVec Ideal S10000x128 .f32) (x1 : FVec Ideal S10000x10000 .f32) (x2 : FVec Ideal S128x128 .f32)
    (x3 : FVec Ideal S128 .f32) (x4 : FVec Ideal S128x64 .f32) (x5 : FVec Ideal S64 .f32) :
    val_main_v11 (F := Ideal) x0 x1 x2 x3 x4 x5 = encoder x0 x1 x2 x3 x4 x5 := by
  unfold val_main_v11 val_main_v10 val_main_v9 val_main_v8 val_main_v7 val_main_v6 val_main_v5 val_main_v4 val_main_v3
    val_main_v2 val_main_v1 val_main_v0 val_main_call0_v0 val_main_call0_cst val_main_call1_v0 val_main_call1_cst
  rw [prod_v0, prod_v1, relu_0, prod_v6, prod_v7, relu_1]
  rfl

end Cert.ReferenceIdeal.RefValue

end
-- ==== Proof.lean ====
/-
  The kernel computes two stacked graph-convolution layers over a dense adjacency,

      out = relu (adj · (relu (adj · (x · W0) + b0) · W1) + b1),

  in one pipelined region of 2 × 25 grid points: point 0 forms x·W0 once into a scratch buffer; the first sweep over the
  25 blocks of 400 adjacency rows forms the hidden activation relu(adj·(x·W0) + b0)·W1 block by block into a second
  scratch buffer; the second sweep forms the result block by block from the whole hidden activation and writes each
  block back. The reference forms the same six operations on the whole arrays. On extended reals both are the same
  function of the six arguments: every product is the same row-by-column sum (a block of rows of a product depends on
  the same rows of its left factor only), so no algebraic law beyond re-indexing is used and finiteness of the inputs
  is not needed.

  The frames of the two kernel programs are proved from the body run at each of the three kinds of grid point and an
  invariant that names what the two scratch buffers hold between points; the value of the idealized kernel is read off
  the same run; the reference's run and its operations read at an index are generated modules.
-/
import proofs.«111238_g66666482369179_cont_9to1_m_93_3_alg».proof.Defs
import proofs.«111238_g66666482369179_cont_9to1_m_93_3_alg».proof.Proof.Gen.Kernel
import proofs.«111238_g66666482369179_cont_9to1_m_93_3_alg».proof.Proof.Gen.KernelIdeal
import proofs.«111238_g66666482369179_cont_9to1_m_93_3_alg».proof.Proof.Gen.ReferenceIdeal
import proofs.«111238_g66666482369179_cont_9to1_m_93_3_alg».proof.Proof.Gen.Pre_finite_inputs
import proofs.«111238_g66666482369179_cont_9to1_m_93_3_alg».proof.Proof.Kernel.BodyData
import proofs.«111238_g66666482369179_cont_9to1_m_93_3_alg».proof.Proof.KernelIdeal.ArrayValue
import proofs.«111238_g66666482369179_cont_9to1_m_93_3_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the encoder of their (agreeing) arguments in the result array. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
